-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x56 : Shape := ⟨2, ![50000, 56]⟩
abbrev S3000000x56 : Shape := ⟨2, ![3000000, 56]⟩
abbrev S50000 : Shape := ⟨1, ![50000]⟩
abbrev S100 : Shape := ⟨1, ![100]⟩
abbrev S3000000x3 : Shape := ⟨2, ![3000000, 3]⟩
abbrev S3000000 : Shape := ⟨1, ![3000000]⟩
abbrev S56x64 : Shape := ⟨2, ![56, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x56 : S_.BroadcastsInDim S50000x56 (![] : Fin 0 → Fin S50000x56.rank)
  reducesTo_S50000x56_S_d0_1 : S50000x56.ReducesTo [0, 1] S_
  h_S_ : 0 < S_.numel
  bcast_S_S3000000x56 : S_.BroadcastsInDim S3000000x56 (![] : Fin 0 → Fin S3000000x56.rank)
  reducesTo_S3000000x56_S_d0_1 : S3000000x56.ReducesTo [0, 1] S_
  bcast_S_S56x64 : S_.BroadcastsInDim S56x64 (![] : Fin 0 → Fin S56x64.rank)
  reducesTo_S56x64_S_d0_1 : S56x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg11 : FVec F S1 .f32) (main_v33 : IVec S_ 1) : IVec S_ 1 :=
  let main_v34 : FVec F S1 .f32 := Host.absf main_arg11
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg8 : FVec F S64x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg10
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg11 main_v33

def fn {F : FTy → Type} [FloatOps F] (main_arg0 : FVec F S50000x56 .f32) (main_arg1 : FVec F S3000000x56 .f32) (main_arg2 : IVec S50000 32) (main_arg3 : IVec S100 32) (main_arg4 : IVec S3000000x3 32) (main_arg5 : IVec S3000000 32) (main_arg6 : FVec F S56x64 .f32) (main_arg7 : FVec F S64 .f32) (main_arg8 : FVec F S64x64 .f32) (main_arg9 : FVec F S64 .f32) (main_arg10 : FVec F S64x1 .f32) (main_arg11 : FVec F S1 .f32) : IVec S_ 1 :=
  let main_v0 : FVec F S50000x56 .f32 := Host.absf main_arg0
  let main_cst : FVec F S_ .f32 := constant S_ .f32 0x7F800000#32
  let main_v1 : FVec F S50000x56 .f32 := broadcastInDim S50000x56 ![] bcast_S_S50000x56 main_cst
  let main_v2 : IVec S50000x56 1 := cmpf .olt main_v0 main_v1
  let main_c : IVec S_ 1 := constantI S_ 1 1#1
  let main_v3 : IVec S_ 1 := (fun x v => Host.reduce IntOp.andi x v reducesTo_S50000x56_S_d0_1 h_S_) main_v2 main_c
  let main_v4 : FVec F S3000000x56 .f32 := Host.absf main_arg1
  let main_cst_0 : FVec F S_ .f32 := constant S_ .f32 0x7F800000#32
  let main_v5 : FVec F S3000000x56 .f32 := broadcastInDim S3000000x56 ![] bcast_S_S3000000x56 main_cst_0
  let main_v6 : IVec S3000000x56 1 := cmpf .olt main_v4 main_v5
  let main_c_1 : IVec S_ 1 := constantI S_ 1 1#1
  let main_v7 : IVec S_ 1 := (fun x v => Host.reduce IntOp.andi x v reducesTo_S3000000x56_S_d0_1 h_S_) main_v6 main_c_1
  let main_v8 : IVec S_ 1 := andi main_v3 main_v7
  let main_v9 : FVec F S56x64 .f32 := Host.absf main_arg6
  let main_cst_2 : FVec F S_ .f32 := constant S_ .f32 0x7F800000#32
  let main_v10 : FVec F S56x64 .f32 := broadcastInDim S56x64 ![] bcast_S_S56x64 main_cst_2
  let main_v11 : IVec S56x64 1 := cmpf .olt main_v9 main_v10
  let main_c_3 : IVec S_ 1 := constantI S_ 1 1#1
  let main_v12 : IVec S_ 1 := (fun x v => Host.reduce IntOp.andi x v reducesTo_S56x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_v13 main_v16
-- ==== Kernel.lean ====
abbrev S50000x56 : Shape := ⟨2, ![50000, 56]⟩
abbrev S3000000x56 : Shape := ⟨2, ![3000000, 56]⟩
abbrev S50000 : Shape := ⟨1, ![50000]⟩
abbrev S100 : Shape := ⟨1, ![100]⟩
abbrev S3000000x3 : Shape := ⟨2, ![3000000, 3]⟩
abbrev S3000000 : Shape := ⟨1, ![3000000]⟩
abbrev S56x64 : Shape := ⟨2, ![56, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S50000x1 : Shape := ⟨2, ![50000, 1]⟩
abbrev S1x1 : Shape := ⟨2, ![1, 1]⟩
abbrev S3000000x1 : Shape := ⟨2, ![3000000, 1]⟩
abbrev S10000x56 : Shape := ⟨2, ![10000, 56]⟩
abbrev S10000x1 : Shape := ⟨2, ![10000, 1]⟩
abbrev S10000 : Shape := ⟨1, ![10000]⟩
abbrev S150000 : Shape := ⟨1, ![150000]⟩

abbrev nBuf : Space → Nat
  | .hbm => 123
  | .vmem => 6
  | .smem => 0
  | _ => 0

abbrev bufTy : (tb : Table) → Fin (tcTables nBuf tb) → BufTy
  | .hbm, ⟨0, _⟩ => ⟨S50000x56, .f32⟩
  | .hbm, ⟨1, _⟩ => ⟨S3000000x56, .f32⟩
  | .hbm, ⟨2, _⟩ => ⟨S50000, .i32⟩
  | .hbm, ⟨3, _⟩ => ⟨S100, .i32⟩
  | .hbm, ⟨4, _⟩ => ⟨S3000000x3, .i32⟩
  | .hbm, ⟨5, _⟩ => ⟨S3000000, .i32⟩
  | .hbm, ⟨6, _⟩ => ⟨S56x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S_, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x1, .f32⟩
  | .hbm, ⟨39, _⟩ => ⟨S1x1, .f32⟩
  | .hbm, ⟨40, _⟩ => ⟨S50000x1, .f32⟩
  | .hbm, ⟨41, _⟩ => ⟨S50000x1, .f32⟩
  | .hbm, ⟨42, _⟩ => ⟨S50000, .f32⟩
  | .hbm, ⟨43, _⟩ => ⟨S_, .f32⟩
  | .hbm, ⟨44, _⟩ => ⟨S100, .f32⟩
  | .hbm, ⟨45, _⟩ => ⟨S50000x1, .i32⟩
  | .hbm, ⟨46, _⟩ => ⟨S100, .f32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S50000x1, .f32⟩
  | .hbm, ⟨82, _⟩ => ⟨S1x1, .f32⟩
  | .hbm, ⟨83, _⟩ => ⟨S50000x1, .f32⟩
  | .hbm, ⟨84, _⟩ => ⟨S50000x1, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S50000x1, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S50000x56, .f32⟩
  | .hbm, ⟨100, _⟩ => ⟨S3000000x1, .i32⟩
  | .hbm, ⟨101, _⟩ => ⟨S3000000, .i32⟩
  | .hbm, ⟨102, _⟩ => ⟨S3000000x1, .i32⟩
  | .hbm, ⟨103, _⟩ => ⟨S3000000, .i32⟩
  | .hbm, ⟨104, _⟩ => ⟨S_, .i32⟩
  | .hbm, ⟨105, _⟩ => ⟨S3000000, .i32⟩
  | .hbm, ⟨106, _⟩ => ⟨S3000000, .i32⟩
  | .hbm, ⟨107, _⟩ => ⟨S3000000, .i32⟩
  | .hbm, ⟨108, _⟩ => ⟨S_, .i32⟩
  | .hbm, ⟨109, _⟩ => ⟨S3000000, .i32⟩
  | .hbm, ⟨110, _⟩ => ⟨S3000000, .i1⟩
  | .hbm, ⟨111, _⟩ => ⟨S_, .i32⟩
  | .hbm, ⟨112, _⟩ => ⟨S3000000, .i32⟩
  | .hbm, ⟨113, _⟩ => ⟨S3000000, .i32⟩
  | .hbm, ⟨114, _⟩ => ⟨S3000000, .i32⟩
  | .hbm, ⟨115, _⟩ => ⟨S3000000x1, .i32⟩
  | .hbm, ⟨116, _⟩ => ⟨S3000000x56, .f32⟩
  | .hbm, ⟨117, _⟩ => ⟨S3000000x1, .f32⟩
  | .hbm, ⟨118, _⟩ => ⟨S3000000, .f32⟩
  | .hbm, ⟨119, _⟩ => ⟨S_, .f32⟩
  | .hbm, ⟨120, _⟩ => ⟨S150000, .f32⟩
  | .hbm, ⟨121, _⟩ => ⟨S3000000x1, .i32⟩
  | .hbm, ⟨122, _⟩ => ⟨S150000, .f32⟩
  | .local _ .vmem, ⟨0, _⟩ => ⟨S10000x56, .f32⟩
  | .local _ .vmem, ⟨1, _⟩ => ⟨S10000x56, .f32⟩
  | .local _ .vmem, ⟨2, _⟩ => ⟨S10000x56, .f32⟩
  | .local _ .vmem, ⟨3, _⟩ => ⟨S10000x56, .f32⟩
  | .local _ .vmem, ⟨4, _⟩ => ⟨S10000x1, .f32⟩
  | .local _ .vmem, ⟨5, _⟩ => ⟨S10000x1, .f32⟩
  | _, _ => ⟨S50000x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_v22_2 : Ref sig .tc := ⟨.hbm, 58, rfl⟩
abbrev main_call2_cst_1 : Ref sig .tc := ⟨.hbm, 59, rfl⟩
abbrev main_call2_v6 : Ref sig .tc := ⟨.hbm, 60, rfl⟩
abbrev main_call2_v7 : Ref sig .tc := ⟨.hbm, 61, rfl⟩
abbrev main_v22_1 : Ref sig .tc := ⟨.hbm, 62, rfl⟩
abbrev main_v22_0 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_v27_2 : Ref sig .tc := ⟨.hbm, 75, rfl⟩
abbrev main_call3_cst_1 : Ref sig .tc := ⟨.hbm, 76, rfl⟩
abbrev main_call3_v6 : Ref sig .tc := ⟨.hbm, 77, rfl⟩
abbrev main_call3_v7 : Ref sig .tc := ⟨.hbm, 78, rfl⟩
abbrev main_v27_1 : Ref sig .tc := ⟨.hbm, 79, rfl⟩
abbrev main_v27_0 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_0 : Ref sig .tc := ⟨.hbm, 85, rfl⟩
abbrev main_v32 : Ref sig .tc := ⟨.hbm, 86, rfl⟩
abbrev main_cst_1 : Ref sig .tc := ⟨.hbm, 87, rfl⟩
abbrev main_v33 : Ref sig .tc := ⟨.hbm, 88, rfl⟩
abbrev main_v34 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v35 : Ref sig .tc := ⟨.hbm, 93, rfl⟩
abbrev main_v36 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_c : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_c_2 : Ref sig .tc := ⟨.hbm, 108, rfl⟩
abbrev main_v46 : Ref sig .tc := ⟨.hbm, 109, rfl⟩
abbrev main_v47 : Ref sig .tc := ⟨.hbm, 110, rfl⟩
abbrev main_c_3 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_cst_4 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![300], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S100 : S_.BroadcastsInDim S100 (![] : Fin 0 → Fin S100.rank)
  bcast_S50000_S50000x1_0 : S50000.BroadcastsInDim S50000x1 (![0] : Fin 1 → Fin S50000x1.rank)
  reducesTo_S50000x1_S_d0_1 : S50000x1.ReducesTo [0, 1] S_
  h_S_ : 0 < S_.numel
  bcast_S_S50000x1 : S_.BroadcastsInDim S50000x1 (![] : Fin 0 → Fin S50000x1.rank)
  slices_S3000000x3_S3000000x1_0_0 : S3000000x3.Slices ![0, 0] S3000000x1
  shapeCasts_S3000000x1_S3000000 : S3000000x1.ShapeCasts S3000000
  slices_S3000000x3_S3000000x1_0_2 : S3000000x3.Slices ![0, 2] S3000000x1
  bcast_S_S3000000 : S_.BroadcastsInDim S3000000 (![] : Fin 0 → Fin S3000000.rank)
  bcast_S3000000_S3000000x1_0 : S3000000.BroadcastsInDim S3000000x1 (![0] : Fin 1 → Fin S3000000x1.rank)
  inb_S10000x56_S10000x56_0_0 : ∀ a, (![0, 0] : Fin 2 → Nat) a + S10000x56.size a ≤ S10000x56.size a
  h_S10000x56 : 0 < S10000x56.numel
  shapeCasts_S10000x56_S10000x56 : S10000x56.ShapeCasts S10000x56
  reduces_S10000x56_S10000 : S10000x56.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  bcast_S_S150000 : S_.BroadcastsInDim S150000 (![] : Fin 0 → Fin S150000.rank)
  dot_S50000x56_S56x64_S50000x64_1_0_0_1_n_n_wf : DotDims.WF S50000x56 S56x64 S50000x64 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  scatter_S100_S50000x1_S50000_n_0_0_1_wf : ScatterDims.WF S100 S50000x1 S50000 [] [0] [0] 1
  dot_S50000x1_S64x1_S50000x64_1_1_0_0_n_n_wf : DotDims.WF S50000x1 S64x1 S50000x64 [1] [1] [0] [0] [] []
  dot_S50000x64_S64x64_S50000x64_1_1_0_0_n_n_wf : DotDims.WF S50000x64 S64x64 S50000x64 [1] [1] [0] [0] [] []
  dot_S50000x64_S56x64_S50000x56_1_1_0_0_n_n_wf : DotDims.WF S50000x64 S56x64 S50000x56 [1] [1] [0] [0] [] []
  gather_S50000x56_S3000000x1_S3000000x56_1_0_n_n_0_1_156_wf : GatherDims.WF S50000x56 S3000000x1 S3000000x56 [1] [0] [] [0] [] 1 ![1, 56]
  scatter_S150000_S3000000x1_S3000000_n_0_0_1_wf : ScatterDims.WF S150000 S3000000x1 S3000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x56.size a ≤ S3000000x56.size a
  hwx0_0 : ∀ i : grid0.Coords, EltTy.bits .f32 = 32 ∨ (Rect.block (s := S3000000x56) S10000x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x56.size a ≤ S3000000x56.size a
  hwx0_1 : ∀ i : grid0.Coords, EltTy.bits .f32 = 32 ∨ (Rect.block (s := S3000000x56) S10000x56.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S3000000x1.size a
  hwx0_2 : ∀ i : grid0.Coords, EltTy.bits .f32 = 32 ∨ (Rect.block (s := S3000000x1) S10000x1.size (cc0_transform_2 i) (hinb0_2 i)).WholeWords (EltTy.packing .f32)

variable [Facts₀]

def dot_S50000x56_S56x64_S50000x64_1_0_0_1_n_n : DotDims S50000x56 S56x64 S50000x64 where
  lhsContracting := [1]
  rhsContracting := [0]
  lhsNonContracting := [0]
  rhsNonContracting := [1]
  lhsBatch := []
  rhsBatch := []
  wf := dot_S50000x56_S56x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S50000x1_S64x1_S50000x64_1_1_0_0_n_n : DotDims S50000x1 S64x1 S50000x64 where
  lhsContracting := [1]
  rhsContracting := [1]
  lhsNonContracting := [0]
  rhsNonContracting := [0]
  lhsBatch := []
  rhsBatch := []
  wf := dot_S50000x1_S64x1_S50000x64_1_1_0_0_n_n_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def dot_S50000x64_S56x64_S50000x56_1_1_0_0_n_n : DotDims S50000x64 S56x64 S50000x56 where
  lhsContracting := [1]
  rhsContracting := [1]
  lhsNonContracting := [0]
  rhsNonContracting := [0]
  lhsBatch := []
  rhsBatch := []
  wf := dot_S50000x64_S56x64_S50000x56_1_1_0_0_n_n_wf
def gather_S50000x56_S3000000x1_S3000000x56_1_0_n_n_0_1_156 : GatherDims S50000x56 S3000000x1 S3000000x56 where
  offsetDims := [1]
  collapsedSliceDims := [0]
  operandBatchingDims := []
  startIndicesBatchingDims := []
  startIndexMap := [0]
  indexVectorDim := 1
  sliceSizes := ![1, 56]
  wf := gather_S50000x56_S3000000x1_S3000000x56_1_0_n_n_0_1_156_wf
def scatter_S150000_S3000000x1_S3000000_n_0_0_1 : ScatterDims S150000 S3000000x1 S3000000 where
  updateWindowDims := []
  insertedWindowDims := [0]
  scatterDimsToOperandDims := [0]
  indexVectorDim := 1
  wf := scatter_S150000_S3000000x1_S3000000_n_0_0_1_wf

abbrev win0_0 : Pipeline.Window sig grid0 :=
  Pipeline.Window.ofSpec (Memref.whole main_arg1) S10000x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S10000x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S10000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x56 : Shape := ⟨2, ![50000, 56]⟩
abbrev S3000000x56 : Shape := ⟨2, ![3000000, 56]⟩
abbrev S50000 : Shape := ⟨1, ![50000]⟩
abbrev S100 : Shape := ⟨1, ![100]⟩
abbrev S3000000x3 : Shape := ⟨2, ![3000000, 3]⟩
abbrev S3000000 : Shape := ⟨1, ![3000000]⟩
abbrev S56x64 : Shape := ⟨2, ![56, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S50000x1 : Shape := ⟨2, ![50000, 1]⟩
abbrev S1x1 : Shape := ⟨2, ![1, 1]⟩
abbrev S3000000x1 : Shape := ⟨2, ![3000000, 1]⟩
abbrev S150000 : Shape := ⟨1, ![150000]⟩

abbrev nBuf : Space → Nat
  | .hbm => 124
  | .vmem => 0
  | .smem => 0
  | _ => 0

abbrev bufTy : (tb : Table) → Fin (tcTables nBuf tb) → BufTy
  | .hbm, ⟨0, _⟩ => ⟨S50000x56, .f32⟩
  | .hbm, ⟨1, _⟩ => ⟨S3000000x56, .f32⟩
  | .hbm, ⟨2, _⟩ => ⟨S50000, .i32⟩
  | .hbm, ⟨3, _⟩ => ⟨S100, .i32⟩
  | .hbm, ⟨4, _⟩ => ⟨S3000000x3, .i32⟩
  | .hbm, ⟨5, _⟩ => ⟨S3000000, .i32⟩
  | .hbm, ⟨6, _⟩ => ⟨S56x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S_, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x1, .f32⟩
  | .hbm, ⟨39, _⟩ => ⟨S1x1, .f32⟩
  | .hbm, ⟨40, _⟩ => ⟨S50000x1, .f32⟩
  | .hbm, ⟨41, _⟩ => ⟨S50000x1, .f32⟩
  | .hbm, ⟨42, _⟩ => ⟨S50000, .f32⟩
  | .hbm, ⟨43, _⟩ => ⟨S_, .f32⟩
  | .hbm, ⟨44, _⟩ => ⟨S100, .f32⟩
  | .hbm, ⟨45, _⟩ => ⟨S50000x1, .i32⟩
  | .hbm, ⟨46, _⟩ => ⟨S100, .f32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S50000x1, .f32⟩
  | .hbm, ⟨82, _⟩ => ⟨S1x1, .f32⟩
  | .hbm, ⟨83, _⟩ => ⟨S50000x1, .f32⟩
  | .hbm, ⟨84, _⟩ => ⟨S50000x1, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S50000x1, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S50000x56, .f32⟩
  | .hbm, ⟨100, _⟩ => ⟨S3000000x1, .i32⟩
  | .hbm, ⟨101, _⟩ => ⟨S3000000, .i32⟩
  | .hbm, ⟨102, _⟩ => ⟨S_, .i32⟩
  | .hbm, ⟨103, _⟩ => ⟨S3000000, .i32⟩
  | .hbm, ⟨104, _⟩ => ⟨S3000000, .i1⟩
  | .hbm, ⟨105, _⟩ => ⟨S_, .i32⟩
  | .hbm, ⟨106, _⟩ => ⟨S3000000, .i32⟩
  | .hbm, ⟨107, _⟩ => ⟨S3000000, .i32⟩
  | .hbm, ⟨108, _⟩ => ⟨S3000000, .i32⟩
  | .hbm, ⟨109, _⟩ => ⟨S3000000x1, .i32⟩
  | .hbm, ⟨110, _⟩ => ⟨S3000000x56, .f32⟩
  | .hbm, ⟨111, _⟩ => ⟨S3000000x56, .f32⟩
  | .hbm, ⟨112, _⟩ => ⟨S_, .f32⟩
  | .hbm, ⟨113, _⟩ => ⟨S3000000, .f32⟩
  | .hbm, ⟨114, _⟩ => ⟨S_, .i32⟩
  | .hbm, ⟨115, _⟩ => ⟨S3000000, .i32⟩
  | .hbm, ⟨116, _⟩ => ⟨S3000000, .i32⟩
  | .hbm, ⟨117, _⟩ => ⟨S3000000x1, .i32⟩
  | .hbm, ⟨118, _⟩ => ⟨S3000000, .i32⟩
  | .hbm, ⟨119, _⟩ => ⟨S3000000, .i32⟩
  | .hbm, ⟨120, _⟩ => ⟨S_, .f32⟩
  | .hbm, ⟨121, _⟩ => ⟨S150000, .f32⟩
  | .hbm, ⟨122, _⟩ => ⟨S3000000x1, .i32⟩
  | .hbm, ⟨123, _⟩ => ⟨S150000, .f32⟩
  | _, _ => ⟨S50000x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_v22_2 : Ref sig .tc := ⟨.hbm, 58, rfl⟩
abbrev main_call2_cst_1 : Ref sig .tc := ⟨.hbm, 59, rfl⟩
abbrev main_call2_v6 : Ref sig .tc := ⟨.hbm, 60, rfl⟩
abbrev main_call2_v7 : Ref sig .tc := ⟨.hbm, 61, rfl⟩
abbrev main_v22_1 : Ref sig .tc := ⟨.hbm, 62, rfl⟩
abbrev main_v22_0 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_v27_2 : Ref sig .tc := ⟨.hbm, 75, rfl⟩
abbrev main_call3_cst_1 : Ref sig .tc := ⟨.hbm, 76, rfl⟩
abbrev main_call3_v6 : Ref sig .tc := ⟨.hbm, 77, rfl⟩
abbrev main_call3_v7 : Ref sig .tc := ⟨.hbm, 78, rfl⟩
abbrev main_v27_1 : Ref sig .tc := ⟨.hbm, 79, rfl⟩
abbrev main_v27_0 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_0 : Ref sig .tc := ⟨.hbm, 85, rfl⟩
abbrev main_v32 : Ref sig .tc := ⟨.hbm, 86, rfl⟩
abbrev main_cst_1 : Ref sig .tc := ⟨.hbm, 87, rfl⟩
abbrev main_v33 : Ref sig .tc := ⟨.hbm, 88, rfl⟩
abbrev main_v34 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v35 : Ref sig .tc := ⟨.hbm, 93, rfl⟩
abbrev main_v36 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_c : Ref sig .tc := ⟨.hbm, 102, rfl⟩
abbrev main_v41 : Ref sig .tc := ⟨.hbm, 103, rfl⟩
abbrev main_v42 : Ref sig .tc := ⟨.hbm, 104, rfl⟩
abbrev main_c_2 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_3 : Ref sig .tc := ⟨.hbm, 112, rfl⟩
abbrev main_v49 : Ref sig .tc := ⟨.hbm, 113, rfl⟩
abbrev main_c_4 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_cst_5 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S100 : S_.BroadcastsInDim S100 (![] : Fin 0 → Fin S100.rank)
  bcast_S50000_S50000x1_0 : S50000.BroadcastsInDim S50000x1 (![0] : Fin 1 → Fin S50000x1.rank)
  reducesTo_S50000x1_S_d0_1 : S50000x1.ReducesTo [0, 1] S_
  h_S_ : 0 < S_.numel
  bcast_S_S50000x1 : S_.BroadcastsInDim S50000x1 (![] : Fin 0 → Fin S50000x1.rank)
  slices_S3000000x3_S3000000x1_0_0 : S3000000x3.Slices ![0, 0] S3000000x1
  shapeCasts_S3000000x1_S3000000 : S3000000x1.ShapeCasts S3000000
  bcast_S_S3000000 : S_.BroadcastsInDim S3000000 (![] : Fin 0 → Fin S3000000.rank)
  bcast_S3000000_S3000000x1_0 : S3000000.BroadcastsInDim S3000000x1 (![0] : Fin 1 → Fin S3000000x1.rank)
  reducesTo_S3000000x56_S3000000_d1 : S3000000x56.ReducesTo [1] S3000000
  slices_S3000000x3_S3000000x1_0_2 : S3000000x3.Slices ![0, 2] S3000000x1
  bcast_S_S150000 : S_.BroadcastsInDim S150000 (![] : Fin 0 → Fin S150000.rank)
  dot_S50000x56_S56x64_S50000x64_1_0_0_1_n_n_wf : DotDims.WF S50000x56 S56x64 S50000x64 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  scatter_S100_S50000x1_S50000_n_0_0_1_wf : ScatterDims.WF S100 S50000x1 S50000 [] [0] [0] 1
  dot_S50000x1_S64x1_S50000x64_1_1_0_0_n_n_wf : DotDims.WF S50000x1 S64x1 S50000x64 [1] [1] [0] [0] [] []
  dot_S50000x64_S64x64_S50000x64_1_1_0_0_n_n_wf : DotDims.WF S50000x64 S64x64 S50000x64 [1] [1] [0] [0] [] []
  dot_S50000x64_S56x64_S50000x56_1_1_0_0_n_n_wf : DotDims.WF S50000x64 S56x64 S50000x56 [1] [1] [0] [0] [] []
  gather_S50000x56_S3000000x1_S3000000x56_1_0_n_n_0_1_156_wf : GatherDims.WF S50000x56 S3000000x1 S3000000x56 [1] [0] [] [0] [] 1 ![1, 56]
  scatter_S150000_S3000000x1_S3000000_n_0_0_1_wf : ScatterDims.WF S150000 S3000000x1 S3000000 [] [0] [0] 1

variable [Facts₀]

def dot_S50000x56_S56x64_S50000x64_1_0_0_1_n_n : DotDims S50000x56 S56x64 S50000x64 where
  lhsContracting := [1]
  rhsContracting := [0]
  lhsNonContracting := [0]
  rhsNonContracting := [1]
  lhsBatch := []
  rhsBatch := []
  wf := dot_S50000x56_S56x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S50000x1_S64x1_S50000x64_1_1_0_0_n_n : DotDims S50000x1 S64x1 S50000x64 where
  lhsContracting := [1]
  rhsContracting := [1]
  lhsNonContracting := [0]
  rhsNonContracting := [0]
  lhsBatch := []
  rhsBatch := []
  wf := dot_S50000x1_S64x1_S50000x64_1_1_0_0_n_n_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def dot_S50000x64_S56x64_S50000x56_1_1_0_0_n_n : DotDims S50000x64 S56x64 S50000x56 where
  lhsContracting := [1]
  rhsContracting := [1]
  lhsNonContracting := [0]
  rhsNonContracting := [0]
  lhsBatch := []
  rhsBatch := []
  wf := dot_S50000x64_S56x64_S50000x56_1_1_0_0_n_n_wf
def gather_S50000x56_S3000000x1_S3000000x56_1_0_n_n_0_1_156 : GatherDims S50000x56 S3000000x1 S3000000x56 where
  offsetDims := [1]
  collapsedSliceDims := [0]
  operandBatchingDims := []
  startIndicesBatchingDims := []
  startIndexMap := [0]
  indexVectorDim := 1
  sliceSizes := ![1, 56]
  wf := gather_S50000x56_S3000000x1_S3000000x56_1_0_n_n_0_1_156_wf
def scatter_S150000_S3000000x1_S3000000_n_0_0_1 : ScatterDims S150000 S3000000x1 S3000000 where
  updateWindowDims := []
  insertedWindowDims := [0]
  scatterDimsToOperandDims := [0]
  indexVectorDim := 1
  wf := scatter_S150000_S3000000x1_S3000000_n_0_0_1_wf

class Facts : Prop extends Facts₀ where

variable [Facts]
-- ==== Proof.HostValues.lean ====
/-
  What the region finds in the buffers the host wrote before it.

  Before the kernel's one tiled region runs, the host has evaluated the small network on the atoms'
  descriptors — the per-configuration energies (a scatter-add of the per-atom energies), and the
  gradient of the summed energy with respect to the descriptors —, has gathered one gradient row per
  derivative row, and has computed each derivative row's target cell `3·j + coord`.  The reference
  program performs the very same host operations on the same arguments, in a slightly different
  order (it gathers before it computes the target cells).  Each of the three values below is therefore,
  operation for operation, the value the reference's own stage computes from the arguments: reading
  the host's operations back one by one gives the same composed term on both sides.
-/
import proofs.«121083_j87857851007474_2_alg».proof.Proof.Gen.KernelIdeal.Frame
import proofs.«121083_j87857851007474_2_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.HostValues

open Cert.KernelIdeal Cert.KernelIdeal.Gen

variable (m : (ℓ : Loc nD τ sig) → Buf (Elt Ideal) ℓ)

set_option maxRecDepth 8192 in
set_option maxHeartbeats 8000000 in
/-- The per-configuration energies: the scatter-add, by configuration number, of the network's per-atom
    outputs — the reference's first result, as a function of the arguments. -/
theorem energy_eq (c : Dev nD) :
    V m c main_v17 = Cert.ReferenceIdeal.Read.val_main_v17 (F := Ideal)
      (m ((c.tc : Thread nD τ).loc main_arg0)) (m ((c.tc : Thread nD τ).loc main_arg2))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11)) := by
  dsimp only [Gen.V, Gen.V0]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

set_option maxRecDepth 8192 in
set_option maxHeartbeats 8000000 in
/-- Each derivative row's target cell `3·j + coord`, from the neighbour numbers and the third column of the
    index table: the reference's stage of the same name. -/
theorem cells_eq (c : Dev nD) :
    V m c main_v45 = Cert.ReferenceIdeal.Read.val_main_v54 (F := Ideal)
      (m ((c.tc : Thread nD τ).loc main_arg4)) (m ((c.tc : Thread nD τ).loc main_arg5)) := by
  dsimp only [Gen.V, Gen.V0]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

set_option maxRecDepth 8192 in
set_option maxHeartbeats 16000000 in
/-- The gathered gradient rows — row `i` is the gradient of the summed energy at the atom the first column of
    the index table names for derivative row `i` —: the reference's gathered stage. -/
theorem gathered_eq (c : Dev nD) :
    V m c main_v52 = Cert.ReferenceIdeal.Read.val_main_v47 (F := Ideal)
      (m ((c.tc : Thread nD τ).loc main_arg0)) (m ((c.tc : Thread nD τ).loc main_arg4))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) := by
  dsimp only [Gen.V, Gen.V0]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

end Cert.KernelIdeal.HostValues

end
-- ==== Proof.RowDot.lean ====
/-
  Row-wise dot products of two matrices with 56 columns, on the extended reals.

  For matrices `a`, `b` with `n` rows the value in question is, per row `r`,
      rowDot a b r = ∑ k < 56, a (r, k) · b (r, k).
  Two computations arrive at it.  One multiplies the matrices entry by entry and sums each row of the
  product over its 56 lanes, keeping the result as an `n × 1` column; the other multiplies entry by
  entry and reduces axis 1 from the initial value `0`, giving a vector of extent `n`.  Both are finite
  sums of the same 56 products in the same order, so no law of the extended reals beyond `0 + s = s`
  is needed, and nothing has to be finite.  The column and the vector differ by a change of layout only:
  the column at `(r, 0)` is the vector at `r`.
-/
import Idealize.ShloMosaic.PureOps.Ideal.Laws
import Idealize.ShloMosaic.Lib.ValueIdx
import Idealize.ShloMosaic.Lib.Pipeline.Value

noncomputable section

namespace RowDot

open Idealize.ShloMosaic Idealize.ShloMosaic.ValueIdx

/-- The dot product of row `r` of two matrices with 56 columns. -/
def rowDot {n : ℕ} (a b : (⟨2, ![n, 56]⟩ : Shape).Idx → EReal) (r : Fin n) : EReal :=
  ∑ k : Fin 56, a (ix2 r k) * b (ix2 r k)

/-- All the row dot products, laid out as an `n × 1` column. -/
def rowDotCol {n : ℕ} (a b : (⟨2, ![n, 56]⟩ : Shape).Idx → EReal) : (⟨2, ![n, 1]⟩ : Shape).Idx → EReal :=
  fun i => rowDot a b (i 0)

theorem rowDotCol_apply {n : ℕ} (a b : (⟨2, ![n, 56]⟩ : Shape).Idx → EReal) (r : Fin n) (u : Fin 1) :
    rowDotCol a b (ix2 r u) = rowDot a b r := rfl

/-- The column at an index whose row coordinate is `r` is row `r`'s dot product. -/
theorem rowDotCol_of_val {n : ℕ} (a b : (⟨2, ![n, 56]⟩ : Shape).Idx → EReal) (i : (⟨2, ![n, 1]⟩ : Shape).Idx)
    (r : Fin n) (h : (i 0).val = r.val) : rowDotCol a b i = rowDot a b r := by
  have e : (i 0 : Fin n) = r := Fin.ext h
  show rowDot a b (i 0) = rowDot a b r
  rw [e]

/-- Summing the lanes of each row of the entrywise product gives, at row `p`, that row's dot product. -/
theorem laneSum_mul_apply {n : ℕ} (x y : FVec Ideal ⟨2, ![n, 56]⟩ .f32)
    (h : (⟨2, ![n, 56]⟩ : Shape).Reduces [1] ⟨1, ![n]⟩) (hφ : FKind.Formats .f32)
    (hacc : (0x00000000#32 : BitVec 32) = FKind.add.neutral .f32 hφ) (p : Fin n) :
    multiReduction .add [1] ⟨1, ![n]⟩ (mulf x y) 0x00000000#32 h hφ hacc (ix1 p) = rowDot x y p := by
  refine (Ideal.multiReduction_add_single (mulf x y) _ h hφ hacc (ix1 p)).trans ?_
  refine Finset.sum_congr rfl fun k _ => ?_
  have e : h.lift (ix1 p) k = ix2 p k :=
    funext fun a => Fin.ext (by match a with | ⟨0, _⟩ => rfl | ⟨1, _⟩ => rfl)
  rw [e]
  rfl

/-- Reducing axis 1 of the entrywise product from an initial value gives, at row `r`, the initial value
    plus that row's dot product. -/
theorem hostRowSum_mul_apply {n : ℕ} (x y : FVec Ideal ⟨2, ![n, 56]⟩ .f32) (init : EReal)
    (h' : (⟨2, ![n, 56]⟩ : Shape).ReducesTo [1] ⟨1, ![n]⟩) (h : (⟨2, ![n, 56]⟩ : Shape).Reduces [1] ⟨1, ![n]⟩)
    (r : Fin n) :
    Ideal.hostReduceAdd h' (mulf x y) init (ix1 r) = init + rowDot x y r := by
  rw [Ideal.hostReduceAdd_single h' h]
  refine congrArg (init + ·) (Finset.sum_congr rfl fun k _ => ?_)
  have e : h.lift (ix1 r) k = ix2 r k :=
    funext fun a => Fin.ext (by match a with | ⟨0, _⟩ => rfl | ⟨1, _⟩ => rfl)
  rw [e]
  rfl

/-- An `a × 1` column viewed as a vector of extent `a` reads, at `i`, the column at `(i, 0)`: both
    indices sit at row-major position `i`. -/
theorem shapeCast_a1_a_apply {α : Type} {a : ℕ} (v : (⟨2, ![a, 1]⟩ : Shape).Idx → α)
    (h : (⟨2, ![a, 1]⟩ : Shape).ShapeCasts ⟨1, ![a]⟩) (i : Fin a) :
    shapeCast ⟨1, ![a]⟩ v h (ix1 i) = v (ix2 i (0 : Fin 1)) :=
  shapeCast_apply v h _ _ (by
    rw [Shape.rowMajor_val_two, Shape.rowMajor_val_one]
    show i.val * 1 + 0 = i.val
    omega)

/-- THE LAW that joins the two computations: the column of row dot products, viewed as a vector, is the
    axis-1 reduction of the entrywise product from the initial value `0`. -/
theorem rowDotCol_eq_hostRowSum {n : ℕ} (x y : FVec Ideal ⟨2, ![n, 56]⟩ .f32)
    (hc : (⟨2, ![n, 1]⟩ : Shape).ShapeCasts ⟨1, ![n]⟩)
    (h' : (⟨2, ![n, 56]⟩ : Shape).ReducesTo [1] ⟨1, ![n]⟩) (h : (⟨2, ![n, 56]⟩ : Shape).Reduces [1] ⟨1, ![n]⟩)
    (hu : 0 < (⟨0, ![]⟩ : Shape).numel) :
    shapeCast ⟨1, ![n]⟩ (rowDotCol x y) hc
      = Host.reduceAdd (F := Ideal) (mulf x y) (constant (F := Ideal) ⟨0, ![]⟩ .f32 0x00000000#32) h' hu := by
  funext j
  obtain ⟨r, rfl⟩ : ∃ r : Fin n, j = ix1 r := ⟨j 0, eq_ix1 j⟩
  refine (shapeCast_a1_a_apply _ hc r).trans ?_
  refine (rowDotCol_apply x y r 0).trans ?_
  unfold Host.reduceAdd constant
  rw [Ideal.hostReduceAdd_def]
  refine ((hostRowSum_mul_apply x y _ h' h r).trans ?_).symm
  rw [Ideal.ofBits_def, Ideal.ofBits_zero_f32, zero_add]

end RowDot

end
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.RowBlocks.lean ====
/-
  What the row-tiled kernel leaves in its output array.

  The kernel walks the 3,000,000 rows of its two operands in 300 blocks of 10,000 rows.  At block `t` it
  loads rows `10000·t … 10000·t + 9999` of both operands (all 56 columns), multiplies them entry by
  entry, sums the 56 lanes of every row and stores the 10,000 sums as a `10000 × 1` column, which is
  written back as rows `10000·t …` of the `3000000 × 1` output.  So entry `(p, 0)` of block `t` is the
  dot product of row `10000·t + p` of the operands: every block is a restriction of ONE whole-array
  function, the column of row dot products.  The 300 blocks tile the output (row `r` lies in block
  `r / 10000`), hence after the last block the output array IS that column.
-/
import proofs.«121083_j87857851007474_2_alg».proof.Proof.Gen.KernelIdeal.Frame
import proofs.«121083_j87857851007474_2_alg».proof.Proof.RowDot
import proofs.«121083_j87857851007474_2_alg».proof.Proof.LibKeepdimsColumn
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RowBlocks

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- One block's stored column, entry `(p, 0)`: the dot product of row `p` of the two loaded blocks. -/
theorem payload_apply (x0 x1 : Vec Ideal S10000x56 .f32) (p : Fin 10000) (q : Fin 1) :
    k0_pay1 (F := Ideal) x0 x1 (ix2 p q) = RowDot.rowDot x0 x1 p := by
  unfold k0_pay1
  dsimp only
  refine (KeepdimsColumn.shapeCast_a_a1_apply _ _ p q).trans ?_
  rw [shapeCast_self]
  exact RowDot.laneSum_mul_apply x0 x1 _ _ _ p

/-- The printed index maps over the grid: at point `t` both operands' blocks and the output's block sit at
    block row `t`, in block column 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) = t.val :=
  (by decide +kernel : ∀ t : Fin grid0.N, _)

/-- Entry `(p, k)` of the first operand's block at point `t` is the operand at row `10000·(block row) + p`. -/
theorem iblk0_apply (c : Dev nD) (t : Fin cfg0.N) (p : Fin 10000) (k : Fin 56) (r : Fin 3000000)
    (hr : r.val = win0_2.index t (0 : Fin 2) * 10000 + p.val) :
    (iblk m c 0 t : Vec Ideal S10000x56 .f32) (ix2 p k) = (V m c main_arg1 : S3000000x56.Idx → EReal) (ix2 r k) := by
  obtain ⟨e0, e1, e2, e3, e4, e5⟩ := idx_facts t
  unfold iblk
  rw [View.read_apply]
  refine congrArg (V m c main_arg1 : S3000000x56.Idx → EReal) ?_
  funext a
  apply Fin.ext
  match a with
  | ⟨0, _⟩ => show win0_0.index t (0 : Fin 2) * 10000 + 1 * p.val = r.val; omega
  | ⟨1, _⟩ => show win0_0.index t (1 : Fin 2) * 56 + 1 * k.val = k.val; omega

/-- The same for the second operand. -/
theorem iblk1_apply (c : Dev nD) (t : Fin cfg0.N) (p : Fin 10000) (k : Fin 56) (r : Fin 3000000)
    (hr : r.val = win0_2.index t (0 : Fin 2) * 10000 + p.val) :
    (iblk m c 1 t : Vec Ideal S10000x56 .f32) (ix2 p k) = (V m c main_v52 : S3000000x56.Idx → EReal) (ix2 r k) := by
  obtain ⟨e0, e1, e2, e3, e4, e5⟩ := idx_facts t
  unfold iblk
  rw [View.read_apply]
  refine congrArg (V m c main_v52 : S3000000x56.Idx → EReal) ?_
  funext a
  apply Fin.ext
  match a with
  | ⟨0, _⟩ => show win0_1.index t (0 : Fin 2) * 10000 + 1 * p.val = r.val; omega
  | ⟨1, _⟩ => show win0_1.index t (1 : Fin 2) * 56 + 1 * k.val = k.val; omega

/-- WHAT POINT `t` WRITES BACK is block `t` of the column of row dot products of the two operand arrays as the
    region finds them. -/
theorem flushed_eq (c : Dev nD) (t : Fin cfg0.N) :
    (dats m 0 c).flushed 2 t = ((cfg0.win 2).blk t).view.read (Elt Ideal)
      (RowDot.rowDotCol (V m c main_arg1 : S3000000x56.Idx → EReal) (V m c main_v52 : S3000000x56.Idx → EReal)) := by
  show (cfg0.win 2).cut (grid0.coords t) ((dats m 0 c).after 2 t) = _
  rw [after0_2]
  unfold out0_2
  rw [View.canon_unit_zero hz]
  simp only [View.ld_unit_zero (S := S10000x56) hz]
  obtain ⟨e0, e1, e2, e3, e4, e5⟩ := idx_facts t
  funext (j : S10000x1.Idx)
  obtain ⟨p, q, rfl⟩ : ∃ (p : Fin 10000) (q : Fin 1), j = ix2 p q := ⟨j 0, j 1, eq_ix2 j⟩
  have hp : p.val < 10000 := p.isLt
  have ht : t.val < 300 := lt_of_lt_of_eq t.isLt N_0
  refine (payload_apply (iblk m c 0 t) (iblk m c 1 t) p q).trans ?_
  refine Eq.trans ?_ (RowDot.rowDotCol_of_val _ _ _ (⟨win0_2.index t (0 : Fin 2) * 10000 + p.val, by omega⟩ : Fin 3000000) ?_).symm
  · unfold RowDot.rowDot
    exact Finset.sum_congr rfl fun k _ => congrArg₂ (· * ·) (iblk0_apply m c t p k _ rfl) (iblk1_apply m c t p k _ rfl)
  · show win0_2.index t (0 : Fin 2) * 10000 + 1 * p.val = win0_2.index t (0 : Fin 2) * 10000 + p.val
    omega

/-- An index of the output array is in point `t`'s block iff each coordinate is in the block's range on its axis. -/
theorem mem_blk (t : Fin cfg0.N) (i : S3000000x1.Idx) :
    i ∈ ((cfg0.win 2).blk t).view.set ↔ ∀ a : Fin 2, win0_2.index t a * S10000x1.size a ≤ (i a).val ∧ (i a).val < win0_2.index t a * S10000x1.size a + S10000x1.size a := by
  show i ∈ ((View.whole main_v53).slice (win0_2.rect t)).set ↔ _
  rw [View.set_slice_whole, Rect.mem_set_unit]
  exact Iff.rfl

/-- The blocks tile the output: row `r` lies in the block of point `r / 10000`. -/
theorem cover (i : S3000000x1.Idx) :
    ∃ t : Fin cfg0.N, (cfg0.win 2).flush t = true ∧ i ∈ ((cfg0.win 2).blk t).view.set := by
  have hi0 : (i 0).val < 3000000 := (i 0).isLt
  have hi1 : (i 1).val < 1 := (i 1).isLt
  let t : Fin cfg0.N := Fin.cast N_0.symm ⟨(i 0).val / 10000, by omega⟩
  obtain ⟨-, -, -, -, q1, q0'⟩ := idx_facts t
  have q0 : win0_2.index t (0 : Fin 2) = (i 0).val / 10000 := q0'
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 1 ≤ (i 1).val ∧ (i 1).val < win0_2.index t (1 : Fin 2) * 1 + 1; omega

/-- THE OUTPUT ARRAY after the region: the column of row dot products of the operand arrays. -/
theorem final (c : Dev nD) : (dats m 0 c).arrAt 2 cfg0.N
    = RowDot.rowDotCol (V m c main_arg1 : S3000000x56.Idx → EReal) (V m c main_v52 : S3000000x56.Idx → EReal) :=
  (dats m 0 c).arrAt_eq_of_cover 2 _ (fun t _ => flushed_eq m c t) cover

end Cert.KernelIdeal.RowBlocks

end
-- ==== Proof.KernelResults.lean ====
/-
  The kernel program's two results as functions of its arguments.

  After the region the host views the `3000000 × 1` column the region wrote as a vector and scatter-adds
  it, at the target cells computed before the region, into 150,000 zeros.  The column is the column of row
  dot products of the derivative rows with the gathered gradient rows; viewed as a vector it is what
  the reference obtains by multiplying the two matrices entry by entry and reducing axis 1 from `0`
  (the one law of this certificate).  The cells and the gathered rows are the reference's own stages,
  so the scatter-add is applied to the same three operands on both sides and is never opened.  The
  per-configuration energies are written before the region and no later operation touches them.
-/
import proofs.«121083_j87857851007474_2_alg».proof.Proof.Gen.KernelIdeal.Frame
import proofs.«121083_j87857851007474_2_alg».proof.Proof.Gen.ReferenceIdeal.Read
import proofs.«121083_j87857851007474_2_alg».proof.Proof.HostValues
import proofs.«121083_j87857851007474_2_alg».proof.Proof.RowBlocks
import proofs.«121083_j87857851007474_2_alg».proof.Proof.RowDot
import Idealize.ShloMosaic.Lib.StableHlo.Run

noncomputable section

open Idealize.ShloMosaic Idealize.ShloMosaic.TcCoe Idealize.SL.Sem Idealize.ShloMosaic.StableHlo

namespace Cert.KernelIdeal.Results

open Cert.KernelIdeal Cert.KernelIdeal.Gen

variable (m : (ℓ : Loc nD τ sig) → Buf (Elt Ideal) ℓ) (ρ : Dev nD → PrngReg)

/-- The first result, the per-configuration energies: no operation after the region writes it, and it is no
    array of the region, so it ends as the host left it before the region. -/
theorem energy_tail (c : Dev nD) :
    Pipeline.afterTail₀ cfgs (dats m) 0 (V0 m) [hostOps1] c main_v17 = Cert.ReferenceIdeal.Read.val_main_v17 (F := Ideal)
      (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Pipeline.afterTail₀
  show StableHlo.after hostOps1 _ (Proc.devRef .tc main_v17) = _
  after_results
  exact (Pipeline.withArrays_of_ne _ c (V0 m c) _ main_v17 (by exact (by decide : ∀ w, Pipeline.arrRef spec0 w ≠ main_v17))).trans
    (HostValues.energy_eq m c)

/-- The second result, the forces: the scatter-add, at the target cells, of the row dot products of the
    derivative rows with the gathered gradient rows — the reference's second result. -/
theorem forces_tail (c : Dev nD) :
    Pipeline.afterTail₀ cfgs (dats m) 0 (V0 m) [hostOps1] c main_v57 = Cert.ReferenceIdeal.Read.val_main_v57 (F := Ideal)
      (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Pipeline.afterTail₀
  show StableHlo.after hostOps1 _ (Proc.devRef .tc main_v57) = _
  after_results
  have hseg : Pipeline.withArrays (cfgs 0).spec c (V0 m c) (fun w => (dats m 0 c).arrAt w (cfgs 0).N) (Proc.devRef .tc main_v45)
      = Cert.ReferenceIdeal.Read.val_main_v54 (F := Ideal) (m ((c.tc : Thread nD τ).loc main_arg4)) (m ((c.tc : Thread nD τ).loc main_arg5)) :=
    (Pipeline.withArrays_of_ne _ c (V0 m c) _ main_v45 (by exact (by decide : ∀ w, Pipeline.arrRef spec0 w ≠ main_v45))).trans
      (HostValues.cells_eq m c)
  have hcol : Pipeline.withArrays (cfgs 0).spec c (V0 m c) (fun w => (dats m 0 c).arrAt w (cfgs 0).N) (Proc.devRef .tc main_v53)
      = RowDot.rowDotCol (n := 3000000) (m ((c.tc : Thread nD τ).loc main_arg1))
          (Cert.ReferenceIdeal.Read.val_main_v47 (F := Ideal) (m ((c.tc : Thread nD τ).loc main_arg0)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
    (Pipeline.withArrays_arr spec0 launch0.win.arr_inj c _ _ 2).trans
      ((RowBlocks.final m c).trans (by rw [HostValues.gathered_eq, V_main_arg1]))
  rw [hseg, hcol]
  unfold Cert.ReferenceIdeal.Read.val_main_v57 Cert.ReferenceIdeal.Read.val_main_v49 Cert.ReferenceIdeal.Read.val_main_v48
    Cert.ReferenceIdeal.Read.val_main_cst_3
  rw [← RowDot.rowDotCol_eq_hostRowSum (n := 3000000) _ _ shapeCasts_S3000000x1_S3000000 _ (by decide)]
  rfl

/-- THE KERNEL PROGRAM'S RUN, read: every weakly fair execution ends with the two results at the reference's
    functions of the arguments, and the arguments unchanged. -/
theorem run : θ_run defs (onTc (τ := τ) (main (F := Ideal))) ⟨m, fun _ => 0, ρ⟩ (fun r => ∀ c : Dev nD,
      r.2.mem ((c.tc : Thread nD τ).loc main_v17) = Cert.ReferenceIdeal.Read.val_main_v17 (F := Ideal)
        (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v57) = Cert.ReferenceIdeal.Read.val_main_v57 (F := Ideal)
        (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_v17 (Pipeline.mem_restRefs_of main_v17 (by decide) (by decide))).trans (energy_tail m c),
      ((h c).2 main_v57 (Pipeline.mem_restRefs_of main_v57 (by decide) (by decide))).trans (forces_tail m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.Results

end
-- ==== Proof.lean ====
/-
  Forces of a small network potential: a row-tiled multiply-and-sum kernel against its jnp reference.

  Both programs evaluate a three-layer network with SiLU activations on the atoms' descriptors `x`, sum the
  per-atom outputs into per-configuration energies (first result), and take the gradient `dE/dD` of the
  summed energy with respect to the descriptors.  For every derivative row `i` they gather the gradient row
  of the atom `xd_indx[i, 0]`, form the dot product of `xd[i, :]` with it over the 56 descriptor
  components, and scatter-add the 3,000,000 products into the 150,000 cells `3·unique_j[i] + xd_indx[i, 2]`
  (second result).  All of this is the same host arithmetic in both programs except the dot products:
  the kernel computes them in a region that walks the rows in 300 blocks of 10,000, multiplying entry
  by entry and summing the 56 lanes of each row; the reference multiplies the whole matrices and
  reduces axis 1 from `0`.  On the extended reals each is the sum of the same 56 products of row `i`,
  so the claim needs no finiteness: the precondition is never opened.

  Modules: RowDot (the row dot product and the law joining the two computations), RowBlocks (the region's
  output array is the column of row dot products), HostValues (what the host wrote before the region is
  what the reference's stages compute), KernelResults (the kernel program's two results).  The ideal
  pass rewrote nothing, so `preserves` is `True`.
-/
import proofs.«121083_j87857851007474_2_alg».proof.Defs
import proofs.«121083_j87857851007474_2_alg».proof.Proof.Gen.Kernel
import proofs.«121083_j87857851007474_2_alg».proof.Proof.Gen.Kernel.Skeleton
import proofs.«121083_j87857851007474_2_alg».proof.Proof.Gen.Kernel.Launch
import proofs.«121083_j87857851007474_2_alg».proof.Proof.Gen.Kernel.Points
import proofs.«121083_j87857851007474_2_alg».proof.Proof.Gen.Kernel.Frame
import proofs.«121083_j87857851007474_2_alg».proof.Proof.Gen.KernelIdeal
import proofs.«121083_j87857851007474_2_alg».proof.Proof.Gen.KernelIdeal.Skeleton
import proofs.«121083_j87857851007474_2_alg».proof.Proof.Gen.KernelIdeal.Launch
import proofs.«121083_j87857851007474_2_alg».proof.Proof.Gen.KernelIdeal.Points
import proofs.«121083_j87857851007474_2_alg».proof.Proof.Gen.KernelIdeal.Frame
import proofs.«121083_j87857851007474_2_alg».proof.Proof.Gen.ReferenceIdeal
import proofs.«121083_j87857851007474_2_alg».proof.Proof.Gen.Pre_finite_inputs
import proofs.«121083_j87857851007474_2_alg».proof.Proof.Gen.ReferenceIdeal.Run
import proofs.«121083_j87857851007474_2_alg».proof.Proof.Gen.ReferenceIdeal.Read
import proofs.«121083_j87857851007474_2_alg».proof.Proof.KernelResults
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the energies and the forces at the SAME
    functions of the arguments: the reference's stages, which the kernel program's results were shown to be. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  refine ⟨(h c).1.trans ?_, (h c).2.1.trans ?_, (h c).2.2⟩
  · refine (Cert.ReferenceIdeal.Read.val_main_v17_eq _ _ _ _ _ _ _ _).trans ?_
    rw [a0, a2, a6, a7, a8, a9, a10, a11]
  · refine (Cert.ReferenceIdeal.Read.val_main_v57_eq m' c).trans ?_
    rw [a0, a1, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
